-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S1650000 : Shape := ⟨1, ![1650000]⟩
abbrev S128x128 : Shape := ⟨2, ![128, 128]⟩
abbrev S128 : Shape := ⟨1, ![128]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel
  bcast_S_S1650000 : S_.BroadcastsInDim S1650000 (![] : Fin 0 → Fin S1650000.rank)
  reducesTo_S1650000_S_d0 : S1650000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x50000x128 .f32) (main_arg1 : IVec S1650000 32) (main_arg2 : IVec S1650000 32) (main_arg3 : FVec F S1650000 .f32) (main_arg4 : FVec F S128x128 .f32) (main_arg5 : FVec F S128 .f32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S1650000 .f32 := Host.absf main_arg3
  let main_cst_0 : FVec F S_ .f32 := constant S_ .f32 0x7F800000#32
  let main_v5 : FVec F S1650000 .f32 := broadcastInDim S1650000 ![] bcast_S_S1650000 main_cst_0
  let main_v6 : IVec S1650000 1 := cmpf .olt main_v4 main_v5
  let main_c_1 : IVec S_ 1 := constantI S_ 1 1#1
  let main_v7 : IVec S_ 1 := (fun x v => Host.reduce IntOp.andi x v reducesTo_S1650000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x50000x128 : Shape := ⟨3, ![1, 50000, 128]⟩
abbrev S1650000 : Shape := ⟨1, ![1650000]⟩
abbrev S128x128 : Shape := ⟨2, ![128, 128]⟩
abbrev S128 : Shape := ⟨1, ![128]⟩
abbrev S4 : Shape := ⟨1, ![4]⟩
abbrev S50000x128 : Shape := ⟨2, ![50000, 128]⟩
abbrev S1650000x1 : Shape := ⟨2, ![1650000, 1]⟩
abbrev S_ : Shape := ⟨0, ![]⟩
abbrev S1650000x128 : Shape := ⟨2, ![1650000, 128]⟩
abbrev S50000 : Shape := ⟨1, ![50000]⟩
abbrev S50000x1 : Shape := ⟨2, ![50000, 1]⟩
abbrev S4x1 : Shape := ⟨2, ![4, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 50
  | .vmem => 11
  | .smem => 0
  | _ => 0

abbrev bufTy : (tb : Table) → Fin (tcTables nBuf tb) → BufTy
  | .hbm, ⟨0, _⟩ => ⟨S1x50000x128, .f32⟩
  | .hbm, ⟨1, _⟩ => ⟨S1650000, .i32⟩
  | .hbm, ⟨2, _⟩ => ⟨S1650000, .i32⟩
  | .hbm, ⟨3, _⟩ => ⟨S1650000, .f32⟩
  | .hbm, ⟨4, _⟩ => ⟨S128x128, .f32⟩
  | .hbm, ⟨5, _⟩ => ⟨S128, .f32⟩
  | .hbm, ⟨6, _⟩ => ⟨S4, .i32⟩
  | .hbm, ⟨7, _⟩ => ⟨S50000x128, .f32⟩
  | .hbm, ⟨8, _⟩ => ⟨S1650000x1, .f32⟩
  | .hbm, ⟨9, _⟩ => ⟨S_, .i32⟩
  | .hbm, ⟨10, _⟩ => ⟨S1650000, .i32⟩
  | .hbm, ⟨11, _⟩ => ⟨S1650000, .i1⟩
  | .hbm, ⟨12, _⟩ => ⟨S_, .i32⟩
  | .hbm, ⟨13, _⟩ => ⟨S1650000, .i32⟩
  | .hbm, ⟨14, _⟩ => ⟨S1650000, .i32⟩
  | .hbm, ⟨15, _⟩ => ⟨S1650000, .i32⟩
  | .hbm, ⟨16, _⟩ => ⟨S1650000x1, .i32⟩
  | .hbm, ⟨17, _⟩ => ⟨S1650000x128, .f32⟩
  | .hbm, ⟨18, _⟩ => ⟨S1650000x128, .f32⟩
  | .hbm, ⟨19, _⟩ => ⟨S1650000x128, .f32⟩
  | .hbm, ⟨20, _⟩ => ⟨S_, .f32⟩
  | .hbm, ⟨21, _⟩ => ⟨S50000x128, .f32⟩
  | .hbm, ⟨22, _⟩ => ⟨S1650000x1, .i32⟩
  | .hbm, ⟨23, _⟩ => ⟨S50000x128, .f32⟩
  | .hbm, ⟨24, _⟩ => ⟨S1650000, .i1⟩
  | .hbm, ⟨25, _⟩ => ⟨S_, .f32⟩
  | .hbm, ⟨26, _⟩ => ⟨S1650000, .f32⟩
  | .hbm, ⟨27, _⟩ => ⟨S1650000, .f32⟩
  | .hbm, ⟨28, _⟩ => ⟨S_, .f32⟩
  | .hbm, ⟨29, _⟩ => ⟨S50000, .f32⟩
  | .hbm, ⟨30, _⟩ => ⟨S1650000x1, .i32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S128, .f32⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S4x1, .i32⟩
  | .hbm, ⟨43, _⟩ => ⟨S_, .f32⟩
  | .hbm, ⟨44, _⟩ => ⟨S4, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S1x50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x50000x128_S50000x128 : S1x50000x128.ShapeCasts S50000x128
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S128 : S_.BroadcastsInDim S128 (![] : Fin 0 → Fin S128.rank)
  bcast_S_S4 : S_.BroadcastsInDim S4 (![] : Fin 0 → Fin S4.rank)
  bcast_S4_S4x1_0 : S4.BroadcastsInDim S4x1 (![0] : Fin 1 → Fin S4x1.rank)
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000x128_S1x50000x128_1_2 : S50000x128.BroadcastsInDim S1x50000x128 (![1, 2] : Fin 2 → Fin S1x50000x128.rank)
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S50000_S1650000x1_S1650000_n_0_0_1_wf : ScatterDims.WF S50000 S1650000x1 S1650000 [] [0] [0] 1
  scatter_S128_S4x1_S4_n_0_0_1_wf : ScatterDims.WF S128 S4x1 S4 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def scatter_S128_S4x1_S4_n_0_0_1 : ScatterDims S128 S4x1 S4 where
  updateWindowDims := []
  insertedWindowDims := [0]
  scatterDimsToOperandDims := [0]
  indexVectorDim := 1
  wf := scatter_S128_S4x1_S4_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x50000x128 : Shape := ⟨3, ![1, 50000, 128]⟩
abbrev S1650000 : Shape := ⟨1, ![1650000]⟩
abbrev S128x128 : Shape := ⟨2, ![128, 128]⟩
abbrev S128 : Shape := ⟨1, ![128]⟩
abbrev S4 : Shape := ⟨1, ![4]⟩
abbrev S50000x128 : Shape := ⟨2, ![50000, 128]⟩
abbrev S1650000x1 : Shape := ⟨2, ![1650000, 1]⟩
abbrev S_ : Shape := ⟨0, ![]⟩
abbrev S1650000x128 : Shape := ⟨2, ![1650000, 128]⟩
abbrev S50000 : Shape := ⟨1, ![50000]⟩
abbrev S4x1 : Shape := ⟨2, ![4, 1]⟩
abbrev S50000x1 : Shape := ⟨2, ![50000, 1]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S1x50000x128, .f32⟩
  | .hbm, ⟨1, _⟩ => ⟨S1650000, .i32⟩
  | .hbm, ⟨2, _⟩ => ⟨S1650000, .i32⟩
  | .hbm, ⟨3, _⟩ => ⟨S1650000, .f32⟩
  | .hbm, ⟨4, _⟩ => ⟨S128x128, .f32⟩
  | .hbm, ⟨5, _⟩ => ⟨S128, .f32⟩
  | .hbm, ⟨6, _⟩ => ⟨S4, .i32⟩
  | .hbm, ⟨7, _⟩ => ⟨S50000x128, .f32⟩
  | .hbm, ⟨8, _⟩ => ⟨S1650000x1, .f32⟩
  | .hbm, ⟨9, _⟩ => ⟨S_, .i32⟩
  | .hbm, ⟨10, _⟩ => ⟨S1650000, .i32⟩
  | .hbm, ⟨11, _⟩ => ⟨S1650000, .i1⟩
  | .hbm, ⟨12, _⟩ => ⟨S_, .i32⟩
  | .hbm, ⟨13, _⟩ => ⟨S1650000, .i32⟩
  | .hbm, ⟨14, _⟩ => ⟨S1650000, .i32⟩
  | .hbm, ⟨15, _⟩ => ⟨S1650000, .i32⟩
  | .hbm, ⟨16, _⟩ => ⟨S1650000x1, .i32⟩
  | .hbm, ⟨17, _⟩ => ⟨S1650000x128, .f32⟩
  | .hbm, ⟨18, _⟩ => ⟨S1650000x128, .f32⟩
  | .hbm, ⟨19, _⟩ => ⟨S1650000x128, .f32⟩
  | .hbm, ⟨20, _⟩ => ⟨S_, .f32⟩
  | .hbm, ⟨21, _⟩ => ⟨S50000x128, .f32⟩
  | .hbm, ⟨22, _⟩ => ⟨S1650000x1, .i32⟩
  | .hbm, ⟨23, _⟩ => ⟨S50000x128, .f32⟩
  | .hbm, ⟨24, _⟩ => ⟨S1650000, .i1⟩
  | .hbm, ⟨25, _⟩ => ⟨S_, .f32⟩
  | .hbm, ⟨26, _⟩ => ⟨S1650000, .f32⟩
  | .hbm, ⟨27, _⟩ => ⟨S1650000, .f32⟩
  | .hbm, ⟨28, _⟩ => ⟨S_, .f32⟩
  | .hbm, ⟨29, _⟩ => ⟨S50000, .f32⟩
  | .hbm, ⟨30, _⟩ => ⟨S1650000x1, .i32⟩
  | .hbm, ⟨31, _⟩ => ⟨S50000, .f32⟩
  | .hbm, ⟨32, _⟩ => ⟨S_, .f32⟩
  | .hbm, ⟨33, _⟩ => ⟨S128, .f32⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i32⟩
  | .hbm, ⟨41, _⟩ => ⟨S4x1, .i32⟩
  | .hbm, ⟨42, _⟩ => ⟨S_, .f32⟩
  | .hbm, ⟨43, _⟩ => ⟨S4, .f32⟩
  | .hbm, ⟨44, _⟩ => ⟨S128, .f32⟩
  | .hbm, ⟨45, _⟩ => ⟨S50000x1, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S1x50000x128, .f32⟩
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  shapeCasts_S1x50000x128_S50000x128 : S1x50000x128.ShapeCasts S50000x128
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S_S50000 : S_.BroadcastsInDim S50000 (![] : Fin 0 → Fin S50000.rank)
  bcast_S_S128 : S_.BroadcastsInDim S128 (![] : Fin 0 → Fin S128.rank)
  bcast_S_S4 : S_.BroadcastsInDim S4 (![] : Fin 0 → Fin S4.rank)
  bcast_S4_S4x1_0 : S4.BroadcastsInDim S4x1 (![0] : Fin 1 → Fin S4x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S50000_S1650000x1_S1650000_n_0_0_1_wf : ScatterDims.WF S50000 S1650000x1 S1650000 [] [0] [0] 1
  scatter_S128_S4x1_S4_n_0_0_1_wf : ScatterDims.WF S128 S4x1 S4 [] [0] [0] 1
  dot_S50000x128_S128x128_S50000x128_1_0_0_1_n_n_wf : DotDims.WF S50000x128 S128x128 S50000x128 [1] [0] [0] [1] [] []

variable [Facts₀]

def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def scatter_S128_S4x1_S4_n_0_0_1 : ScatterDims S128 S4x1 S4 where
  updateWindowDims := []
  insertedWindowDims := [0]
  scatterDimsToOperandDims := [0]
  indexVectorDim := 1
  wf := scatter_S128_S4x1_S4_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  One graph-convolution layer, as a function of six arrays, index by index on the extended reals.

  With `n` nodes and 128 features in and out, given the aggregated features `agg` (`n × 128`), the diagonal of the
  adjacency as a column `dcol` (`n × 1`), the node features `x` (`n × 128`), a feature mask as a row `mrow`
  (`1 × 128`), the weights `w` (`128 × 128`) and the bias as a row `brow` (`1 × 128`), entry `(p, q)` of the output is

      max ( (∑ k, (agg[p,k] − dcol[p,0] · (x[p,k] · mrow[0,k])) · w[k,q]) + brow[0,q] , 0 ).

  Row `p` of the output depends on row `p` of `agg`, `dcol` and `x` only, which is why a block of rows of the output is
  the same function of the matching blocks of rows of those three arrays.
-/
import Idealize.ShloMosaic.PureOps.Ideal
import Idealize.ShloMosaic.Lib.ValueIdx

noncomputable section

open scoped BigOperators

namespace GraphLayer

open Idealize.ShloMosaic Idealize.ShloMosaic.ValueIdx

/-- One entry of the output from one row of each row-indexed operand: the corrected row `a − d · (x · mask)` times column
    `q` of the weights, plus the bias at `q`, clamped below at zero. The zero is kept as the word it is written with. -/
def entry (a : Fin 128 → EReal) (d : EReal) (x mk : Fin 128 → EReal) (w : Fin 128 → Fin 128 → EReal) (b : Fin 128 → EReal)
    (q : Fin 128) : EReal :=
  max ((∑ k : Fin 128, (a k - d * (x k * mk k)) * w k q) + b q) (Ideal.ofBits .f32 0x00000000#32)

/-- An entry depends on its operands only through their values. -/
theorem entry_congr {a a' : Fin 128 → EReal} {d d' : EReal} {x x' mk mk' : Fin 128 → EReal} {w w' : Fin 128 → Fin 128 → EReal}
    {b b' : Fin 128 → EReal} (ha : ∀ k, a k = a' k) (hd : d = d') (hx : ∀ k, x k = x' k) (hm : ∀ k, mk k = mk' k)
    (hw : ∀ k q, w k q = w' k q) (hb : ∀ q, b q = b' q) (q : Fin 128) :
    entry a d x mk w b q = entry a' d' x' mk' w' b' q := by
  obtain rfl : a = a' := funext ha
  obtain rfl : x = x' := funext hx
  obtain rfl : mk = mk' := funext hm
  obtain rfl : w = w' := funext fun k => funext (hw k)
  obtain rfl : b = b' := funext hb
  rw [hd]

/-- The layer's `n × 128` output from the six arrays. -/
def out (n : ℕ) (agg : (⟨2, ![n, 128]⟩ : Shape).Idx → EReal) (dcol : (⟨2, ![n, 1]⟩ : Shape).Idx → EReal)
    (x : (⟨2, ![n, 128]⟩ : Shape).Idx → EReal) (mrow : (⟨2, ![1, 128]⟩ : Shape).Idx → EReal)
    (w : (⟨2, ![128, 128]⟩ : Shape).Idx → EReal) (brow : (⟨2, ![1, 128]⟩ : Shape).Idx → EReal) :
    (⟨2, ![n, 128]⟩ : Shape).Idx → EReal :=
  fun i => entry (fun k => agg (ix2 (i 0) k)) (dcol (ix2 (i 0) (0 : Fin 1))) (fun k => x (ix2 (i 0) k))
    (fun k => mrow (ix2 (0 : Fin 1) k)) (fun k q => w (ix2 k q)) (fun q => brow (ix2 (0 : Fin 1) q)) (i 1)

/-- The output at row `p`, column `q`. -/
theorem out_ix2 (n : ℕ) (agg : (⟨2, ![n, 128]⟩ : Shape).Idx → EReal) (dcol : (⟨2, ![n, 1]⟩ : Shape).Idx → EReal)
    (x : (⟨2, ![n, 128]⟩ : Shape).Idx → EReal) (mrow : (⟨2, ![1, 128]⟩ : Shape).Idx → EReal)
    (w : (⟨2, ![128, 128]⟩ : Shape).Idx → EReal) (brow : (⟨2, ![1, 128]⟩ : Shape).Idx → EReal) (p : Fin n) (q : Fin 128) :
    out n agg dcol x mrow w brow (ix2 p q)
      = entry (fun k => agg (ix2 p k)) (dcol (ix2 p (0 : Fin 1))) (fun k => x (ix2 p k))
          (fun k => mrow (ix2 (0 : Fin 1) k)) (fun k q => w (ix2 k q)) (fun q => brow (ix2 (0 : Fin 1) q)) q := rfl

end GraphLayer

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.BlockPayload.lean ====
/-
  What the kernel body computes from the six blocks it loads, at the extended reals: the layer's output for the block's
  2000 rows. The body forms `agg − diag · (x · mask)` with the diagonal column and the mask row broadcast over the block,
  multiplies by the weights on the matrix unit into a zero accumulator (a plain sum over the 128 contracted features,
  the two narrowings to bf16 being the identity on extended reals), adds the broadcast bias row and takes the maximum with
  zero. Read at row `p` and column `q` that is `GraphLayer.entry` of row `p` of the blocks.
-/
import proofs.«139332_j79955111182918_1_alg».proof.Proof.Gen.KernelIdeal.Skeleton
import proofs.«139332_j79955111182918_1_alg».proof.Proof.LayerSpec
import proofs.«139332_j79955111182918_1_alg».proof.Proof.LibMatmulNN
import proofs.«139332_j79955111182918_1_alg».proof.Proof.LibColumnLayout
import Idealize.ShloMosaic.Lib.Pipeline.Value
import Idealize.ShloMosaic.Lib.ValueIdx
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- The corrected features of the block at `(p, k)`: `agg[p,k] − diag[p,0] · (x[p,k] · mask[0,k])`. -/
theorem corrected_apply (x0 x2 : FVec Ideal S2000x128 .f32) (x1 : FVec Ideal S2000x1 .f32) (x3 : FVec Ideal S1x128 .f32)
    (p : Fin 2000) (k : Fin 128) :
    subf (shapeCast S2000x128 x0 Facts₀.shapeCasts_S2000x128_S2000x128)
        (mulf (broadcastTo S2000x128 (shapeCast S2000x1 x1 Facts₀.shapeCasts_S2000x1_S2000x1) Facts₀.broadcasts_S2000x1_S2000x128)
          (mulf (shapeCast S2000x128 x2 Facts₀.shapeCasts_S2000x128_S2000x128)
            (broadcastTo S2000x128 (shapeCast S1x128 x3 Facts₀.shapeCasts_S1x128_S1x128) Facts₀.broadcasts_S1x128_S2000x128))) (ix2 p k)
      = x0 (ix2 p k) - x1 (ix2 p (0 : Fin 1)) * (x2 (ix2 p k) * x3 (ix2 (0 : Fin 1) k)) := by
  rw [subf_apply, mulf_apply, mulf_apply, broadcastTo_a1_ab_apply, broadcastTo_1b_ab_apply]
  simp only [shapeCast_self]

/-- The body's stored value at `(p, q)` is the layer's entry from row `p` of the loaded blocks. -/
theorem payload_eq (x0 x2 : FVec Ideal S2000x128 .f32) (x1 : FVec Ideal S2000x1 .f32) (x3 x5 : FVec Ideal S1x128 .f32)
    (x4 : FVec Ideal S128x128 .f32) :
    k0_pay1 (F := Ideal) x0 x1 x2 x3 x4 x5 = GraphLayer.out 2000 x0 x1 x2 x3 x4 x5 := by
  funext j
  obtain ⟨p, q, rfl⟩ : ∃ (p : Fin 2000) (q : Fin 128), j = ix2 p q := ⟨j 0, j 1, eq_ix2 j⟩
  rw [GraphLayer.out_ix2]
  unfold k0_pay1 GraphLayer.entry
  refine congrArg₂ max (congrArg₂ (· + ·) ?_ ?_) rfl
  · refine (LibMatmulNN.matmul_zero_apply 2000 128 128 none _ _ p q).trans ?_
    refine Finset.sum_congr rfl fun k _ => ?_
    exact congrArg₂ (· * ·) (corrected_apply x0 x2 x1 x3 p k) rfl
  · refine (broadcastTo_1b_ab_apply _ _ p q).trans ?_
    rw [shapeCast_self]

end Cert.KernelIdeal.BlockValue

end
-- ==== Proof.ArrayValue.lean ====
/-
  From blocks to the whole array, and the kernel program's run read back.

  The grid has 25 points; point `t` works on rows `2000·t … 2000·t + 1999`: it is handed those rows of the aggregated
  features, of the diagonal column and of the node features, and the whole mask row, weight matrix and bias row, and
  writes those rows of the output. Since an output row depends only on the same row of the three row-blocked operands
  (`GraphLayer.out`), what point `t` writes back is block `t` of ONE function of the six arrays as the region finds them;
  the 25 blocks cover all 50000 rows, so the output array ends as that function; the line after the region adds the
  leading unit axis.
-/
import proofs.«139332_j79955111182918_1_alg».proof.Proof.Gen.KernelIdeal.Frame
import proofs.«139332_j79955111182918_1_alg».proof.Proof.BlockPayload
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The layer's output from the six arrays as the region finds them. -/
def arrayOut (c : Dev nD) : S50000x128.Idx → Elt Ideal .f32 :=
  GraphLayer.out 50000 (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- The block index maps over the grid: the three row-blocked inputs move with the output along the rows and stay at
    lane block 0; the mask, the weights and the bias stay at block (0, 0); the output's row block index is at most 24. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 24 ∧ win0_6.index t (1 : Fin 2) = 0 :=
  (by decide +kernel : ∀ t : Fin grid0.N, _)

/-- Every row block is some point's. -/
theorem index_onto : ∀ b : Fin 25, ∃ t : Fin cfg0.N, win0_6.index t = ![b.val, 0] :=
  (by decide +kernel : ∀ b : Fin 25, ∃ t : Fin grid0.N, win0_6.index t = ![b.val, 0])

/-- Row `p` of point `t`'s blocks is row `2000 · (the point's row block) + p` of the arrays. -/
theorem row_lt (t : Fin cfg0.N) (p : Fin 2000) : win0_6.index t (0 : Fin 2) * 2000 + p.val < 50000 := by
  obtain ⟨-, -, -, -, -, -, -, -, -, -, -, -, h, -⟩ := index_facts t
  have := p.isLt
  omega

def rowOf (t : Fin cfg0.N) (p : Fin 2000) : Fin 50000 := ⟨win0_6.index t (0 : Fin 2) * 2000 + p.val, row_lt t p⟩

/-- For any contents of the aggregated-features array: its block at `(p, k)` is the array at `(rowOf t p, k)`. -/
theorem read_agg (c : Dev nD) (t : Fin cfg0.N) (A : Buf (Elt Ideal) ((c : Thread nD τ).loc (Pipeline.arrRef spec0 0))) (p : Fin 2000) (k : Fin 128) :
    View.read (Elt Ideal) ((cfg0.win 0).blk t).view A (ix2 p k) = A (ix2 (rowOf t p) k) := by
  obtain ⟨e0, e1, -⟩ := index_facts t
  show A (((cfg0.win 0).blk t).view.emb (ix2 p k)) = A (ix2 (rowOf t p) k)
  refine congrArg A ?_
  funext a; apply Fin.ext
  match a with
  | ⟨0, _⟩ => show win0_0.index t (0 : Fin 2) * 2000 + 1 * p.val = win0_6.index t (0 : Fin 2) * 2000 + p.val; omega
  | ⟨1, _⟩ => show win0_0.index t (1 : Fin 2) * 128 + 1 * k.val = k.val; omega

/-- For any contents of the diagonal column: its block at `(p, 0)` is the array at `(rowOf t p, 0)`. -/
theorem read_diag (c : Dev nD) (t : Fin cfg0.N) (A : Buf (Elt Ideal) ((c : Thread nD τ).loc (Pipeline.arrRef spec0 1))) (p : Fin 2000) :
    View.read (Elt Ideal) ((cfg0.win 1).blk t).view A (ix2 p (0 : Fin 1)) = A (ix2 (rowOf t p) (0 : Fin 1)) := by
  obtain ⟨-, -, e0, e1, -⟩ := index_facts t
  show A (((cfg0.win 1).blk t).view.emb (ix2 p (0 : Fin 1))) = A (ix2 (rowOf t p) (0 : Fin 1))
  refine congrArg A ?_
  funext a; apply Fin.ext
  match a with
  | ⟨0, _⟩ => show win0_1.index t (0 : Fin 2) * 2000 + 1 * p.val = win0_6.index t (0 : Fin 2) * 2000 + p.val; omega
  | ⟨1, _⟩ => show win0_1.index t (1 : Fin 2) * 1 + 1 * 0 = 0; omega

/-- For any contents of the node-features array: its block at `(p, k)` is the array at `(rowOf t p, k)`. -/
theorem read_x (c : Dev nD) (t : Fin cfg0.N) (A : Buf (Elt Ideal) ((c : Thread nD τ).loc (Pipeline.arrRef spec0 2))) (p : Fin 2000) (k : Fin 128) :
    View.read (Elt Ideal) ((cfg0.win 2).blk t).view A (ix2 p k) = A (ix2 (rowOf t p) k) := by
  obtain ⟨-, -, -, -, e0, e1, -⟩ := index_facts t
  show A (((cfg0.win 2).blk t).view.emb (ix2 p k)) = A (ix2 (rowOf t p) k)
  refine congrArg A ?_
  funext a; apply Fin.ext
  match a with
  | ⟨0, _⟩ => show win0_2.index t (0 : Fin 2) * 2000 + 1 * p.val = win0_6.index t (0 : Fin 2) * 2000 + p.val; omega
  | ⟨1, _⟩ => show win0_2.index t (1 : Fin 2) * 128 + 1 * k.val = k.val; omega

/-- The mask row's block is the whole row. -/
theorem read_mask (c : Dev nD) (t : Fin cfg0.N) (A : Buf (Elt Ideal) ((c : Thread nD τ).loc (Pipeline.arrRef spec0 3))) (k : Fin 128) :
    View.read (Elt Ideal) ((cfg0.win 3).blk t).view A (ix2 (0 : Fin 1) k) = A (ix2 (0 : Fin 1) k) := by
  obtain ⟨-, -, -, -, -, -, e0, e1, -⟩ := index_facts t
  show A (((cfg0.win 3).blk t).view.emb (ix2 (0 : Fin 1) k)) = A (ix2 (0 : Fin 1) k)
  refine congrArg A ?_
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The weights' block is the whole matrix. -/
theorem read_w (c : Dev nD) (t : Fin cfg0.N) (A : Buf (Elt Ideal) ((c : Thread nD τ).loc (Pipeline.arrRef spec0 4))) (k q : Fin 128) :
    View.read (Elt Ideal) ((cfg0.win 4).blk t).view A (ix2 k q) = A (ix2 k q) := by
  obtain ⟨-, -, -, -, -, -, -, -, e0, e1, -⟩ := index_facts t
  show A (((cfg0.win 4).blk t).view.emb (ix2 k q)) = A (ix2 k q)
  refine congrArg A ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- The bias row's block is the whole row. -/
theorem read_bias (c : Dev nD) (t : Fin cfg0.N) (A : Buf (Elt Ideal) ((c : Thread nD τ).loc (Pipeline.arrRef spec0 5))) (q : Fin 128) :
    View.read (Elt Ideal) ((cfg0.win 5).blk t).view A (ix2 (0 : Fin 1) q) = A (ix2 (0 : Fin 1) q) := by
  obtain ⟨-, -, -, -, -, -, -, -, -, -, e0, e1, -⟩ := index_facts t
  show A (((cfg0.win 5).blk t).view.emb (ix2 (0 : Fin 1) q)) = A (ix2 (0 : Fin 1) q)
  refine congrArg A ?_
  funext a; apply Fin.ext
  match a with
  | ⟨0, _⟩ => show win0_5.index t (0 : Fin 2) * 1 + 1 * 0 = 0; omega
  | ⟨1, _⟩ => show win0_5.index t (1 : Fin 2) * 128 + 1 * q.val = q.val; omega

/-- The output block's entry `(p, q)` sits at `(rowOf t p, q)` of the output array. -/
theorem emb_out (t : Fin cfg0.N) (p : Fin 2000) (q : Fin 128) :
    ((cfg0.win 6).blk t).view.emb (ix2 p q) = (ix2 (rowOf t p) q : S50000x128.Idx) := by
  obtain ⟨-, -, -, -, -, -, -, -, -, -, -, -, -, e1⟩ := index_facts t
  funext a; apply Fin.ext
  match a with
  | ⟨0, _⟩ => show win0_6.index t (0 : Fin 2) * 2000 + 1 * p.val = win0_6.index t (0 : Fin 2) * 2000 + p.val; omega
  | ⟨1, _⟩ => show win0_6.index t (1 : Fin 2) * 128 + 1 * q.val = q.val; omega

/-- For ANY contents of the six arrays: the layer's output of the six blocks point `t` is handed is block `t` of the
    layer's output of the arrays — an output row depends only on the same row of the row-blocked operands. -/
theorem out_block (c : Dev nD) (t : Fin cfg0.N) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4)))
    (A5 : Buf (Elt Ideal) ((c : Thread nD τ).loc (Pipeline.arrRef spec0 5))) :
    (win0 6).cut (grid0.coords t)
      (GraphLayer.out 2000
        (View.read (Elt Ideal) ((cfg0.win 0).blk t).view A0) (View.read (Elt Ideal) ((cfg0.win 1).blk t).view A1)
        (View.read (Elt Ideal) ((cfg0.win 2).blk t).view A2) (View.read (Elt Ideal) ((cfg0.win 3).blk t).view A3)
        (View.read (Elt Ideal) ((cfg0.win 4).blk t).view A4) (View.read (Elt Ideal) ((cfg0.win 5).blk t).view A5))
      = View.read (Elt Ideal) ((View.whole main_v31).slice ((win0 6).rect t)) (GraphLayer.out 50000 A0 A1 A2 A3 A4 A5) := by
  funext j
  obtain ⟨p, q, rfl⟩ : ∃ (p : Fin 2000) (q : Fin 128), j = ix2 p q := ⟨j 0, j 1, eq_ix2 j⟩
  show GraphLayer.out 2000 _ _ _ _ _ _ (ix2 p q) = GraphLayer.out 50000 A0 A1 A2 A3 A4 A5 (((cfg0.win 6).blk t).view.emb (ix2 p q))
  rw [emb_out t p q, GraphLayer.out_ix2, GraphLayer.out_ix2]
  exact GraphLayer.entry_congr (fun k => read_agg c t A0 p k) (read_diag c t A1 p) (fun k => read_x c t A2 p k)
    (fun k => read_mask c t A3 k) (fun k q => read_w c t A4 k q) (fun q => read_bias c t A5 q) q

/-- What point `t` writes back is block `t` of `arrayOut`. -/
theorem flushed_eq (c : Dev nD) (t : Fin cfg0.N) :
    (dats m 0 c).flushed 6 t = ((cfg0.win 6).blk t).view.read (Elt Ideal) (arrayOut m c) := by
  show (cfg0.win 6).cut (grid0.coords t) ((dats m 0 c).after 6 t) = _
  rw [after0_6]
  unfold out0_6
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  rw [BlockValue.payload_eq]
  unfold iblk arrayOut
  exact out_block c t _ _ _ _ _ _

/-- An index of the output array is in point `t`'s block iff each coordinate is in the block's range on its axis. -/
theorem mem_block (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v31).slice (win0_6.rect t)).set ↔ _
  rw [View.set_slice_whole, Rect.mem_set_unit]
  exact Iff.rfl

/-- Every row of the output lies in the block of the point whose row block is `row / 2000`. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := index_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region is the layer's output of the six arrays the region found. -/
theorem final (c : Dev nD) : (dats m 0 c).arrAt 6 cfg0.N = arrayOut m c :=
  (dats m 0 c).arrAt_eq_of_cover 6 (arrayOut m c) (fun t _ => flushed_eq m c t) covered

/-- The program's result, after the one line that follows the region: the output array under a leading unit axis. -/
theorem tail_result (c : Dev nD) :
    Pipeline.afterTail₀ cfgs (dats m) 0 (V0 m) [hostOps1] c main_v32
      = broadcastInDim S1x50000x128 ![1, 2] bcast_S50000x128_S1x50000x128_1_2 (arrayOut m c) := by
  unfold Pipeline.afterTail₀
  show StableHlo.after hostOps1 _ (Proc.devRef .tc main_v32) = _
  after_results
  exact congrArg (broadcastInDim S1x50000x128 ![1, 2] bcast_S50000x128_S1x50000x128_1_2)
    ((Pipeline.withArrays_arr spec0 launch0.win.arr_inj c (V0 m c) (fun w => (dats m 0 c).arrAt w cfg0.N) 6).trans (final m c))

/-- The kernel program's run, read back: every weakly fair execution ends with the result at the layer's output of the
    six arrays the region found, under a leading unit axis, and the six inputs as they were. -/
theorem run : θ_run defs (onTc (τ := τ) (main (F := Ideal))) ⟨m, fun _ => 0, ρ⟩ fun r => ∀ c : Dev nD,
      r.2.mem ((c.tc : Thread nD τ).loc main_v32)
        = broadcastInDim S1x50000x128 ![1, 2] bcast_S50000x128_S1x50000x128_1_2 (arrayOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v32 (Pipeline.mem_restRefs_of main_v32 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.ArrayValue

end
-- ==== Proof.HostPrefix.lean ====
/-
  The arrays both programs compute on the host before the dense part of the layer, as functions of the six inputs
  (node features `a0` of shape 1 × 50000 × 128, edge sources `a1`, edge targets `a2`, edge weights `a3`, the weight
  matrix, the bias `a5`):

  * the node features without their leading unit axis;
  * the aggregated features: for every edge `e` the features of its target node (a negative target index counted from
    the end) scaled by the edge's weight, added into the row of its source node, starting from zero;
  * the diagonal of the adjacency as a column: the weights of the edges whose source equals their target, added into the
    entry of that node, starting from zero;
  * the feature mask as a row: ones written at features 0, 5, 17 and 42 of a zero vector;
  * the bias as a row.

  The gather and the scatters are kept as the operations they are: nothing below looks inside them.
-/
import proofs.«139332_j79955111182918_1_alg».proof.Proof.Gen.KernelIdeal

noncomputable section

namespace Cert.KernelIdeal.HostPrefix

open Cert.KernelIdeal Cert.KernelIdeal.Gen Idealize.ShloMosaic

variable {F : FTy → Type} [FloatOps F]

/-- The node features: the input without its leading unit axis. -/
def nodeFeatures (a0 : (⟨S1x50000x128, .f32⟩ : BufTy).Contents (Elt F)) : (⟨S50000x128, .f32⟩ : BufTy).Contents (Elt F) :=
  fun i => shapeCast S50000x128 a0 shapeCasts_S1x50000x128_S50000x128 i

/-- The row each edge gathers: its target index, with a negative index counted from the end, as a column. -/
def gatherIndex (a2 : (⟨S1650000, .i32⟩ : BufTy).Contents (Elt F)) : (⟨S1650000x1, .i32⟩ : BufTy).Contents (Elt F) :=
  broadcastInDim S1650000x1 ![0] bcast_S1650000_S1650000x1_0
    (select (cmpi .slt a2 (broadcastInDim S1650000 ![] bcast_S_S1650000 (constantI S_ 32 0#32)))
      (addi a2 (broadcastInDim S1650000 ![] bcast_S_S1650000 (constantI S_ 32 50000#32))) a2)

/-- The aggregated features: weighted target features added into the source rows. -/
def aggregated (a0 : (⟨S1x50000x128, .f32⟩ : BufTy).Contents (Elt F)) (a1 a2 : (⟨S1650000, .i32⟩ : BufTy).Contents (Elt F))
    (a3 : (⟨S1650000, .f32⟩ : BufTy).Contents (Elt F)) : (⟨S50000x128, .f32⟩ : BufTy).Contents (Elt F) :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 a1)
    (mulf
      (broadcastInDim S1650000x128 ![0, 1] bcast_S1650000x1_S1650000x128_0_1
        (broadcastInDim S1650000x1 ![0] bcast_S1650000_S1650000x1_0 a3))
      (Host.gather gather_S50000x128_S1650000x1_S1650000x128_1_0_n_n_0_1_1128 (nodeFeatures a0) (gatherIndex a2)))

/-- The adjacency's diagonal as a column: self-loop weights added into their node's entry. -/
def diagColumn (a1 a2 : (⟨S1650000, .i32⟩ : BufTy).Contents (Elt F)) (a3 : (⟨S1650000, .f32⟩ : BufTy).Contents (Elt F)) :
    (⟨S50000x1, .f32⟩ : BufTy).Contents (Elt F) :=
  broadcastInDim S50000x1 ![0] bcast_S50000_S50000x1_0
    (Host.scatterAdd scatter_S50000_S1650000x1_S1650000_n_0_0_1
      (broadcastInDim S50000 ![] bcast_S_S50000 (constant S_ .f32 0x00000000#32))
      (broadcastInDim S1650000x1 ![0] bcast_S1650000_S1650000x1_0 a1)
      (select (cmpi .eq a1 a2) a3 (broadcastInDim S1650000 ![] bcast_S_S1650000 (constant S_ .f32 0x00000000#32))))

/-- The feature mask as a row: ones at the four labelled features, zeros elsewhere. -/
def maskRow : (⟨S1x128, .f32⟩ : BufTy).Contents (Elt F) :=
  broadcastInDim S1x128 ![1] bcast_S128_S1x128_1
    (Host.scatter scatter_S128_S4x1_S4_n_0_0_1 (fun _ b => b)
      (broadcastInDim S128 ![] bcast_S_S128 (constant S_ .f32 0x00000000#32))
      (broadcastInDim S4x1 ![0] bcast_S4_S4x1_0
        (select (cmpi .slt (fun i => lit0 (S4.rowMajor i)) (broadcastInDim S4 ![] bcast_S_S4 (constantI S_ 32 0#32)))
          (addi (fun i => lit0 (S4.rowMajor i)) (broadcastInDim S4 ![] bcast_S_S4 (constantI S_ 32 128#32)))
          (fun i => lit0 (S4.rowMajor i))))
      (broadcastInDim S4 ![] bcast_S_S4 (constant S_ .f32 0x3F800000#32)))

/-- The bias as a row. -/
def biasRow (a5 : (⟨S128, .f32⟩ : BufTy).Contents (Elt F)) : (⟨S1x128, .f32⟩ : BufTy).Contents (Elt F) :=
  broadcastInDim S1x128 ![1] bcast_S128_S1x128_1 a5

end Cert.KernelIdeal.HostPrefix

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.KernelPrefix.lean ====
/-
  What the region finds in its six operand arrays: the host lines before it leave there the arrays of
  `HostPrefix` of the program's inputs (each line's result read at its own buffer, the other buffers untouched; the
  contents a called function passes through its typed references are carried there and back unchanged).
-/
import proofs.«139332_j79955111182918_1_alg».proof.Proof.Gen.KernelIdeal.Frame
import proofs.«139332_j79955111182918_1_alg».proof.Proof.HostPrefix
import proofs.«139332_j79955111182918_1_alg».proof.Proof.LibTypedRef
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

set_option maxHeartbeats 1000000 in
theorem found_features (c : Dev nD) :
    V m c main_v0 = HostPrefix.nodeFeatures (m ((c.tc : Thread nD τ).loc main_arg0)) := by
  dsimp only [V, V0]
  simp only [hostOps0, hostOps0_1, hostOps0_2, List.flatten_cons, List.flatten_nil, List.append_nil, List.cons_append, List.nil_append]
  after_results_simp
  rfl

set_option maxHeartbeats 1000000 in
theorem found_aggregated (c : Dev nD) :
    V m c main_v13 = HostPrefix.aggregated (m ((c.tc : Thread nD τ).loc main_arg0)) (m ((c.tc : Thread nD τ).loc main_arg1))
      (m ((c.tc : Thread nD τ).loc main_arg2)) (m ((c.tc : Thread nD τ).loc main_arg3)) := by
  dsimp only [V, V0]
  simp only [hostOps0, hostOps0_1, hostOps0_2, List.flatten_cons, List.flatten_nil, List.append_nil, List.cons_append, List.nil_append]
  after_results_simp
  rfl

set_option maxHeartbeats 1000000 in
theorem found_diag (c : Dev nD) :
    V m c main_v19 = HostPrefix.diagColumn (m ((c.tc : Thread nD τ).loc main_arg1)) (m ((c.tc : Thread nD τ).loc main_arg2))
      (m ((c.tc : Thread nD τ).loc main_arg3)) := by
  dsimp only [V, V0]
  simp only [hostOps0, hostOps0_1, hostOps0_2, List.flatten_cons, List.flatten_nil, List.append_nil, List.cons_append, List.nil_append]
  after_results_simp
  simp only [TRef.ofBuf_toBuf]
  rfl

set_option maxHeartbeats 1000000 in
theorem found_mask (c : Dev nD) : V m c main_v29 = HostPrefix.maskRow := by
  dsimp only [V, V0]
  simp only [hostOps0, hostOps0_1, hostOps0_2, List.flatten_cons, List.flatten_nil, List.append_nil, List.cons_append, List.nil_append]
  after_results_simp
  rfl

set_option maxHeartbeats 1000000 in
theorem found_bias (c : Dev nD) : V m c main_v30 = HostPrefix.biasRow (m ((c.tc : Thread nD τ).loc main_arg5)) := by
  dsimp only [V, V0]
  simp only [hostOps0, hostOps0_1, hostOps0_2, List.flatten_cons, List.flatten_nil, List.append_nil, List.cons_append, List.nil_append]
  after_results_simp
  rfl

end Cert.KernelIdeal.RegionEntry

end
-- ==== Proof.KernelResult.lean ====
/-
  The kernel program's result over its inputs: the six arrays the region finds are the host-prefix arrays of the inputs
  (and the weights themselves), so the output array is the layer's output of those.
-/
import proofs.«139332_j79955111182918_1_alg».proof.Proof.ArrayValue
import proofs.«139332_j79955111182918_1_alg».proof.Proof.KernelPrefix

noncomputable section

namespace Cert.KernelIdeal.ArrayValue

open Cert.KernelIdeal Cert.KernelIdeal.Gen Idealize.ShloMosaic Idealize.ShloMosaic.TcCoe Idealize.SL.Sem

variable (m : (ℓ : Loc nD τ sig) → Buf (Elt Ideal) ℓ)

/-- The layer's output of the arrays the region finds, over the program's inputs. -/
theorem arrayOut_eq (c : Dev nD) :
    arrayOut m c = GraphLayer.out 50000 (HostPrefix.aggregated (m ((c.tc : Thread nD τ).loc main_arg0)) (m ((c.tc : Thread nD τ).loc main_arg1)) (m ((c.tc : Thread nD τ).loc main_arg2)) (m ((c.tc : Thread nD τ).loc main_arg3)))
      (HostPrefix.diagColumn (m ((c.tc : Thread nD τ).loc main_arg1)) (m ((c.tc : Thread nD τ).loc main_arg2)) (m ((c.tc : Thread nD τ).loc main_arg3))) (HostPrefix.nodeFeatures (m ((c.tc : Thread nD τ).loc main_arg0)))
      (HostPrefix.maskRow (F := Ideal)) (m ((c.tc : Thread nD τ).loc main_arg4)) (HostPrefix.biasRow (m ((c.tc : Thread nD τ).loc main_arg5))) := by
  unfold arrayOut
  exact congr (congr (congr (congr (congr (congrArg (GraphLayer.out 50000) (RegionEntry.found_aggregated m c))
    (RegionEntry.found_diag m c)) (RegionEntry.found_features m c)) (RegionEntry.found_mask m c)) (V_main_arg4 m c))
    (RegionEntry.found_bias m c)

end Cert.KernelIdeal.ArrayValue

end
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.RefRun.lean ====
/-
  The reference program's run. Its @main is a straight line of host operations except for two calls of small outlined
  functions (a select against a constant; a maximum with zero). Each call runs the callee's operations on the caller's
  buffers (the callee names them through typed references; at a literal buffer the carried type is the buffer's own, so
  its operations are the plain ones there), so @main is the chain of five stretches — operations, the first callee's two operations, operations, the
  second callee's three operations, the last operation — and a chain of straight lines is the straight line of their
  concatenation. Every weakly fair execution of a straight line terminates, and each buffer ends at the fold of the
  operations' results over the launch contents.
-/
import proofs.«139332_j79955111182918_1_alg».proof.Proof.Gen.ReferenceIdeal
import proofs.«139332_j79955111182918_1_alg».proof.Proof.LibSeqChain
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main up to the first call. -/
abbrev opsA : List (HloOp τ sig (Elt F)) :=
  [
    nullary main_c (fun i => lit0 (S4.rowMajor i)),
    reshape main_arg0 main_v0 rfl shapeCasts_S1x50000x128_S50000x128,
    unary main_arg3 main_v1 (broadcastInDim S1650000x1 ![0] bcast_S1650000_S1650000x1_0 : (⟨S1650000, .f32⟩ : BufTy).Contents (Elt F) → (⟨S1650000x1, .f32⟩ : BufTy).Contents (Elt F)),
    nullary main_c_0 (constantI S_ 32 0#32),
    unary main_c_0 main_v2 (broadcastInDim S1650000 ![] bcast_S_S1650000 : (⟨S_, .i32⟩ : BufTy).Contents (Elt F) → (⟨S1650000, .i32⟩ : BufTy).Contents (Elt F)),
    binary main_arg2 main_v2 main_v3 (cmpi .slt : (⟨S1650000, .i32⟩ : BufTy).Contents (Elt F) → (⟨S1650000, .i32⟩ : BufTy).Contents (Elt F) → (⟨S1650000, .i1⟩ : BufTy).Contents (Elt F)),
    nullary main_c_1 (constantI S_ 32 50000#32),
    unary main_c_1 main_v4 (broadcastInDim S1650000 ![] bcast_S_S1650000 : (⟨S_, .i32⟩ : BufTy).Contents (Elt F) → (⟨S1650000, .i32⟩ : BufTy).Contents (Elt F)),
    binary main_arg2 main_v4 main_v5 (addi : (⟨S1650000, .i32⟩ : BufTy).Contents (Elt F) → (⟨S1650000, .i32⟩ : BufTy).Contents (Elt F) → (⟨S1650000, .i32⟩ : BufTy).Contents (Elt F)),
    ternary main_v3 main_v5 main_arg2 main_v6 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v6 main_v7 (broadcastInDim S1650000x1 ![0] bcast_S1650000_S1650000x1_0 : (⟨S1650000, .i32⟩ : BufTy).Contents (Elt F) → (⟨S1650000x1, .i32⟩ : BufTy).Contents (Elt F)),
    binary main_v0 main_v7 main_v8 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v1 main_v9 (broadcastInDim S1650000x128 ![0, 1] bcast_S1650000x1_S1650000x128_0_1 : (⟨S1650000x1, .f32⟩ : BufTy).Contents (Elt F) → (⟨S1650000x128, .f32⟩ : BufTy).Contents (Elt F)),
    binary main_v9 main_v8 main_v10 (mulf : (⟨S1650000x128, .f32⟩ : BufTy).Contents (Elt F) → (⟨S1650000x128, .f32⟩ : BufTy).Contents (Elt F) → (⟨S1650000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg1 main_v12 (broadcastInDim S1650000x1 ![0] bcast_S1650000_S1650000x1_0 : (⟨S1650000, .i32⟩ : BufTy).Contents (Elt F) → (⟨S1650000x1, .i32⟩ : BufTy).Contents (Elt F)),
    ternary main_v11 main_v12 main_v10 main_v13 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    binary main_arg1 main_arg2 main_v14 (cmpi .eq : (⟨S1650000, .i32⟩ : BufTy).Contents (Elt F) → (⟨S1650000, .i32⟩ : BufTy).Contents (Elt F) → (⟨S1650000, .i1⟩ : BufTy).Contents (Elt F)),
    nullary main_cst_2 (constant S_ .f32 0x00000000#32) ]

/-- The first callee's operations, on the call's buffers: a constant spread to the edges' shape, then the select. -/
abbrev opsW : List (HloOp τ sig (Elt F)) :=
  [
    unary main_cst_2 main_call0_v0 (broadcastInDim S1650000 ![] bcast_S_S1650000 : (⟨S_, .f32⟩ : BufTy).Contents (Elt F) → (⟨S1650000, .f32⟩ : BufTy).Contents (Elt F)),
    ternary main_v14 main_arg3 main_call0_v0 main_v15 (select : (⟨S1650000, .i1⟩ : BufTy).Contents (Elt F) → (⟨S1650000, .f32⟩ : BufTy).Contents (Elt F) → (⟨S1650000, .f32⟩ : BufTy).Contents (Elt F) → (⟨S1650000, .f32⟩ : BufTy).Contents (Elt F)) ]

/-- @main between the two calls. -/
abbrev opsB : List (HloOp τ sig (Elt F)) :=
  [
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    unary main_arg1 main_v17 (broadcastInDim S1650000x1 ![0] bcast_S1650000_S1650000x1_0 : (⟨S1650000, .i32⟩ : BufTy).Contents (Elt F) → (⟨S1650000x1, .i32⟩ : BufTy).Contents (Elt F)),
    ternary main_v16 main_v17 main_v15 main_v18 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_4 (constant S_ .f32 0x00000000#32),
    unary main_cst_4 main_v19 (broadcastInDim S128 ![] bcast_S_S128 : (⟨S_, .f32⟩ : BufTy).Contents (Elt F) → (⟨S128, .f32⟩ : BufTy).Contents (Elt F)),
    nullary main_c_5 (constantI S_ 32 0#32),
    unary main_c_5 main_v20 (broadcastInDim S4 ![] bcast_S_S4 : (⟨S_, .i32⟩ : BufTy).Contents (Elt F) → (⟨S4, .i32⟩ : BufTy).Contents (Elt F)),
    binary main_c main_v20 main_v21 (cmpi .slt : (⟨S4, .i32⟩ : BufTy).Contents (Elt F) → (⟨S4, .i32⟩ : BufTy).Contents (Elt F) → (⟨S4, .i1⟩ : BufTy).Contents (Elt F)),
    nullary main_c_6 (constantI S_ 32 128#32),
    unary main_c_6 main_v22 (broadcastInDim S4 ![] bcast_S_S4 : (⟨S_, .i32⟩ : BufTy).Contents (Elt F) → (⟨S4, .i32⟩ : BufTy).Contents (Elt F)),
    binary main_c main_v22 main_v23 (addi : (⟨S4, .i32⟩ : BufTy).Contents (Elt F) → (⟨S4, .i32⟩ : BufTy).Contents (Elt F) → (⟨S4, .i32⟩ : BufTy).Contents (Elt F)),
    ternary main_v21 main_v23 main_c main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v24 main_v25 (broadcastInDim S4x1 ![0] bcast_S4_S4x1_0 : (⟨S4, .i32⟩ : BufTy).Contents (Elt F) → (⟨S4x1, .i32⟩ : BufTy).Contents (Elt F)),
    nullary main_cst_7 (constant S_ .f32 0x3F800000#32),
    unary main_cst_7 main_v26 (broadcastInDim S4 ![] bcast_S_S4 : (⟨S_, .f32⟩ : BufTy).Contents (Elt F) → (⟨S4, .f32⟩ : BufTy).Contents (Elt F)),
    ternary main_v19 main_v25 main_v26 main_v27 ((fun x i u => Host.scatter scatter_S128_S4x1_S4_n_0_0_1 (fun _ b => b) x i u) : (⟨S128, .f32⟩ : BufTy).Contents (Elt F) → (⟨S4x1, .i32⟩ : BufTy).Contents (Elt F) → (⟨S4, .f32⟩ : BufTy).Contents (Elt F) → (⟨S128, .f32⟩ : BufTy).Contents (Elt F)),
    unary main_v18 main_v28 (broadcastInDim S50000x1 ![0] bcast_S50000_S50000x1_0 : (⟨S50000, .f32⟩ : BufTy).Contents (Elt F) → (⟨S50000x1, .f32⟩ : BufTy).Contents (Elt F)),
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v0 main_v30 main_v31 (mulf : (⟨S50000x128, .f32⟩ : BufTy).Contents (Elt F) → (⟨S50000x128, .f32⟩ : BufTy).Contents (Elt F) → (⟨S50000x128, .f32⟩ : BufTy).Contents (Elt F)),
    unary main_v28 main_v32 (broadcastInDim S50000x128 ![0, 1] bcast_S50000x1_S50000x128_0_1 : (⟨S50000x1, .f32⟩ : BufTy).Contents (Elt F) → (⟨S50000x128, .f32⟩ : BufTy).Contents (Elt F)),
    binary main_v32 main_v31 main_v33 (mulf : (⟨S50000x128, .f32⟩ : BufTy).Contents (Elt F) → (⟨S50000x128, .f32⟩ : BufTy).Contents (Elt F) → (⟨S50000x128, .f32⟩ : BufTy).Contents (Elt F)),
    binary main_v13 main_v33 main_v34 (subf : (⟨S50000x128, .f32⟩ : BufTy).Contents (Elt F) → (⟨S50000x128, .f32⟩ : BufTy).Contents (Elt F) → (⟨S50000x128, .f32⟩ : BufTy).Contents (Elt F)),
    binary main_v34 main_arg4 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)) ]

/-- The second callee's operations, on the call's buffers: zero, spread to the output's shape, then the maximum. -/
abbrev opsR : List (HloOp τ sig (Elt F)) :=
  [
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v38 main_call1_v0 main_v39 (maximumf : (⟨S50000x128, .f32⟩ : BufTy).Contents (Elt F) → (⟨S50000x128, .f32⟩ : BufTy).Contents (Elt F) → (⟨S50000x128, .f32⟩ : BufTy).Contents (Elt F)) ]

/-- @main after the second call: the leading unit axis. -/
abbrev opsC : List (HloOp τ sig (Elt F)) :=
  [
    unary main_v39 main_v40 (broadcastInDim S1x50000x128 ![1, 2] bcast_S50000x128_S1x50000x128_1_2 : (⟨S50000x128, .f32⟩ : BufTy).Contents (Elt F) → (⟨S1x50000x128, .f32⟩ : BufTy).Contents (Elt F)) ]

/-- @main is the chain of the five stretches. -/
theorem main_chain (c : Dev nD) : main (F := F) c = (Pipeline.chain
  [ seq opsA, seq opsW, seq opsB, seq opsR, seq opsC ] : Prog (TpuEff nD τ sig (Elt F) (Pipeline.Sig Λ₀ (Fin 0) fun p => (pcfgs (F := F) p).Adm) .tc) PUnit) := by
  chain_rfl

/-- The five stretches laid end to end: @main's operations and the two called functions' operations, in execution order. -/
abbrev ops : List (HloOp τ sig (Elt F)) :=
  [
    nullary main_c (fun i => lit0 (S4.rowMajor i)),
    reshape main_arg0 main_v0 rfl shapeCasts_S1x50000x128_S50000x128,
    unary main_arg3 main_v1 (broadcastInDim S1650000x1 ![0] bcast_S1650000_S1650000x1_0 : (⟨S1650000, .f32⟩ : BufTy).Contents (Elt F) → (⟨S1650000x1, .f32⟩ : BufTy).Contents (Elt F)),
    nullary main_c_0 (constantI S_ 32 0#32),
    unary main_c_0 main_v2 (broadcastInDim S1650000 ![] bcast_S_S1650000 : (⟨S_, .i32⟩ : BufTy).Contents (Elt F) → (⟨S1650000, .i32⟩ : BufTy).Contents (Elt F)),
    binary main_arg2 main_v2 main_v3 (cmpi .slt : (⟨S1650000, .i32⟩ : BufTy).Contents (Elt F) → (⟨S1650000, .i32⟩ : BufTy).Contents (Elt F) → (⟨S1650000, .i1⟩ : BufTy).Contents (Elt F)),
    nullary main_c_1 (constantI S_ 32 50000#32),
    unary main_c_1 main_v4 (broadcastInDim S1650000 ![] bcast_S_S1650000 : (⟨S_, .i32⟩ : BufTy).Contents (Elt F) → (⟨S1650000, .i32⟩ : BufTy).Contents (Elt F)),
    binary main_arg2 main_v4 main_v5 (addi : (⟨S1650000, .i32⟩ : BufTy).Contents (Elt F) → (⟨S1650000, .i32⟩ : BufTy).Contents (Elt F) → (⟨S1650000, .i32⟩ : BufTy).Contents (Elt F)),
    ternary main_v3 main_v5 main_arg2 main_v6 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v6 main_v7 (broadcastInDim S1650000x1 ![0] bcast_S1650000_S1650000x1_0 : (⟨S1650000, .i32⟩ : BufTy).Contents (Elt F) → (⟨S1650000x1, .i32⟩ : BufTy).Contents (Elt F)),
    binary main_v0 main_v7 main_v8 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v1 main_v9 (broadcastInDim S1650000x128 ![0, 1] bcast_S1650000x1_S1650000x128_0_1 : (⟨S1650000x1, .f32⟩ : BufTy).Contents (Elt F) → (⟨S1650000x128, .f32⟩ : BufTy).Contents (Elt F)),
    binary main_v9 main_v8 main_v10 (mulf : (⟨S1650000x128, .f32⟩ : BufTy).Contents (Elt F) → (⟨S1650000x128, .f32⟩ : BufTy).Contents (Elt F) → (⟨S1650000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg1 main_v12 (broadcastInDim S1650000x1 ![0] bcast_S1650000_S1650000x1_0 : (⟨S1650000, .i32⟩ : BufTy).Contents (Elt F) → (⟨S1650000x1, .i32⟩ : BufTy).Contents (Elt F)),
    ternary main_v11 main_v12 main_v10 main_v13 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    binary main_arg1 main_arg2 main_v14 (cmpi .eq : (⟨S1650000, .i32⟩ : BufTy).Contents (Elt F) → (⟨S1650000, .i32⟩ : BufTy).Contents (Elt F) → (⟨S1650000, .i1⟩ : BufTy).Contents (Elt F)),
    nullary main_cst_2 (constant S_ .f32 0x00000000#32),
    unary main_cst_2 main_call0_v0 (broadcastInDim S1650000 ![] bcast_S_S1650000 : (⟨S_, .f32⟩ : BufTy).Contents (Elt F) → (⟨S1650000, .f32⟩ : BufTy).Contents (Elt F)),
    ternary main_v14 main_arg3 main_call0_v0 main_v15 (select : (⟨S1650000, .i1⟩ : BufTy).Contents (Elt F) → (⟨S1650000, .f32⟩ : BufTy).Contents (Elt F) → (⟨S1650000, .f32⟩ : BufTy).Contents (Elt F) → (⟨S1650000, .f32⟩ : BufTy).Contents (Elt F)),
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    unary main_arg1 main_v17 (broadcastInDim S1650000x1 ![0] bcast_S1650000_S1650000x1_0 : (⟨S1650000, .i32⟩ : BufTy).Contents (Elt F) → (⟨S1650000x1, .i32⟩ : BufTy).Contents (Elt F)),
    ternary main_v16 main_v17 main_v15 main_v18 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_4 (constant S_ .f32 0x00000000#32),
    unary main_cst_4 main_v19 (broadcastInDim S128 ![] bcast_S_S128 : (⟨S_, .f32⟩ : BufTy).Contents (Elt F) → (⟨S128, .f32⟩ : BufTy).Contents (Elt F)),
    nullary main_c_5 (constantI S_ 32 0#32),
    unary main_c_5 main_v20 (broadcastInDim S4 ![] bcast_S_S4 : (⟨S_, .i32⟩ : BufTy).Contents (Elt F) → (⟨S4, .i32⟩ : BufTy).Contents (Elt F)),
    binary main_c main_v20 main_v21 (cmpi .slt : (⟨S4, .i32⟩ : BufTy).Contents (Elt F) → (⟨S4, .i32⟩ : BufTy).Contents (Elt F) → (⟨S4, .i1⟩ : BufTy).Contents (Elt F)),
    nullary main_c_6 (constantI S_ 32 128#32),
    unary main_c_6 main_v22 (broadcastInDim S4 ![] bcast_S_S4 : (⟨S_, .i32⟩ : BufTy).Contents (Elt F) → (⟨S4, .i32⟩ : BufTy).Contents (Elt F)),
    binary main_c main_v22 main_v23 (addi : (⟨S4, .i32⟩ : BufTy).Contents (Elt F) → (⟨S4, .i32⟩ : BufTy).Contents (Elt F) → (⟨S4, .i32⟩ : BufTy).Contents (Elt F)),
    ternary main_v21 main_v23 main_c main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v24 main_v25 (broadcastInDim S4x1 ![0] bcast_S4_S4x1_0 : (⟨S4, .i32⟩ : BufTy).Contents (Elt F) → (⟨S4x1, .i32⟩ : BufTy).Contents (Elt F)),
    nullary main_cst_7 (constant S_ .f32 0x3F800000#32),
    unary main_cst_7 main_v26 (broadcastInDim S4 ![] bcast_S_S4 : (⟨S_, .f32⟩ : BufTy).Contents (Elt F) → (⟨S4, .f32⟩ : BufTy).Contents (Elt F)),
    ternary main_v19 main_v25 main_v26 main_v27 ((fun x i u => Host.scatter scatter_S128_S4x1_S4_n_0_0_1 (fun _ b => b) x i u) : (⟨S128, .f32⟩ : BufTy).Contents (Elt F) → (⟨S4x1, .i32⟩ : BufTy).Contents (Elt F) → (⟨S4, .f32⟩ : BufTy).Contents (Elt F) → (⟨S128, .f32⟩ : BufTy).Contents (Elt F)),
    unary main_v18 main_v28 (broadcastInDim S50000x1 ![0] bcast_S50000_S50000x1_0 : (⟨S50000, .f32⟩ : BufTy).Contents (Elt F) → (⟨S50000x1, .f32⟩ : BufTy).Contents (Elt F)),
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v0 main_v30 main_v31 (mulf : (⟨S50000x128, .f32⟩ : BufTy).Contents (Elt F) → (⟨S50000x128, .f32⟩ : BufTy).Contents (Elt F) → (⟨S50000x128, .f32⟩ : BufTy).Contents (Elt F)),
    unary main_v28 main_v32 (broadcastInDim S50000x128 ![0, 1] bcast_S50000x1_S50000x128_0_1 : (⟨S50000x1, .f32⟩ : BufTy).Contents (Elt F) → (⟨S50000x128, .f32⟩ : BufTy).Contents (Elt F)),
    binary main_v32 main_v31 main_v33 (mulf : (⟨S50000x128, .f32⟩ : BufTy).Contents (Elt F) → (⟨S50000x128, .f32⟩ : BufTy).Contents (Elt F) → (⟨S50000x128, .f32⟩ : BufTy).Contents (Elt F)),
    binary main_v13 main_v33 main_v34 (subf : (⟨S50000x128, .f32⟩ : BufTy).Contents (Elt F) → (⟨S50000x128, .f32⟩ : BufTy).Contents (Elt F) → (⟨S50000x128, .f32⟩ : BufTy).Contents (Elt F)),
    binary main_v34 main_arg4 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v38 main_call1_v0 main_v39 (maximumf : (⟨S50000x128, .f32⟩ : BufTy).Contents (Elt F) → (⟨S50000x128, .f32⟩ : BufTy).Contents (Elt F) → (⟨S50000x128, .f32⟩ : BufTy).Contents (Elt F)),
    unary main_v39 main_v40 (broadcastInDim S1x50000x128 ![1, 2] bcast_S50000x128_S1x50000x128_1_2 : (⟨S50000x128, .f32⟩ : BufTy).Contents (Elt F) → (⟨S1x50000x128, .f32⟩ : BufTy).Contents (Elt F)) ]

/-- @main is ONE straight line. -/
theorem main_eq (c : Dev nD) : main (F := F) c = seq ops :=
  (main_chain c).trans ((chain_map_seq [opsA, opsW, opsB, opsR, opsC]).trans rfl)

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., unary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub ..⟩

/-- Every weakly fair execution terminates with every buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Run

end
-- ==== Proof.RefPrefix.lean ====
/-
  The host-prefix arrays (node features, aggregated features, diagonal column, mask row, bias row) once more, over the
  reference program's own vocabulary of shapes and dimension records: the reference computes them with the same
  operations on the same inputs, so the text is the kernel program's with the names of the other printed program.
-/
import proofs.«139332_j79955111182918_1_alg».proof.Proof.Gen.ReferenceIdeal

noncomputable section

namespace Cert.ReferenceIdeal.HostPrefix

open Cert.ReferenceIdeal Cert.ReferenceIdeal.Gen Idealize.ShloMosaic

variable {F : FTy → Type} [FloatOps F]

/-- The node features: the input without its leading unit axis. -/
def nodeFeatures (a0 : (⟨S1x50000x128, .f32⟩ : BufTy).Contents (Elt F)) : (⟨S50000x128, .f32⟩ : BufTy).Contents (Elt F) :=
  fun i => shapeCast S50000x128 a0 shapeCasts_S1x50000x128_S50000x128 i

/-- The row each edge gathers: its target index, with a negative index counted from the end, as a column. -/
def gatherIndex (a2 : (⟨S1650000, .i32⟩ : BufTy).Contents (Elt F)) : (⟨S1650000x1, .i32⟩ : BufTy).Contents (Elt F) :=
  broadcastInDim S1650000x1 ![0] bcast_S1650000_S1650000x1_0
    (select (cmpi .slt a2 (broadcastInDim S1650000 ![] bcast_S_S1650000 (constantI S_ 32 0#32)))
      (addi a2 (broadcastInDim S1650000 ![] bcast_S_S1650000 (constantI S_ 32 50000#32))) a2)

/-- The aggregated features: weighted target features added into the source rows. -/
def aggregated (a0 : (⟨S1x50000x128, .f32⟩ : BufTy).Contents (Elt F)) (a1 a2 : (⟨S1650000, .i32⟩ : BufTy).Contents (Elt F))
    (a3 : (⟨S1650000, .f32⟩ : BufTy).Contents (Elt F)) : (⟨S50000x128, .f32⟩ : BufTy).Contents (Elt F) :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 a1)
    (mulf
      (broadcastInDim S1650000x128 ![0, 1] bcast_S1650000x1_S1650000x128_0_1
        (broadcastInDim S1650000x1 ![0] bcast_S1650000_S1650000x1_0 a3))
      (Host.gather gather_S50000x128_S1650000x1_S1650000x128_1_0_n_n_0_1_1128 (nodeFeatures a0) (gatherIndex a2)))

/-- The adjacency's diagonal as a column: self-loop weights added into their node's entry. -/
def diagColumn (a1 a2 : (⟨S1650000, .i32⟩ : BufTy).Contents (Elt F)) (a3 : (⟨S1650000, .f32⟩ : BufTy).Contents (Elt F)) :
    (⟨S50000x1, .f32⟩ : BufTy).Contents (Elt F) :=
  broadcastInDim S50000x1 ![0] bcast_S50000_S50000x1_0
    (Host.scatterAdd scatter_S50000_S1650000x1_S1650000_n_0_0_1
      (broadcastInDim S50000 ![] bcast_S_S50000 (constant S_ .f32 0x00000000#32))
      (broadcastInDim S1650000x1 ![0] bcast_S1650000_S1650000x1_0 a1)
      (select (cmpi .eq a1 a2) a3 (broadcastInDim S1650000 ![] bcast_S_S1650000 (constant S_ .f32 0x00000000#32))))

/-- The feature mask as a row: ones at the four labelled features, zeros elsewhere. -/
def maskRow : (⟨S1x128, .f32⟩ : BufTy).Contents (Elt F) :=
  broadcastInDim S1x128 ![1] bcast_S128_S1x128_1
    (Host.scatter scatter_S128_S4x1_S4_n_0_0_1 (fun _ b => b)
      (broadcastInDim S128 ![] bcast_S_S128 (constant S_ .f32 0x00000000#32))
      (broadcastInDim S4x1 ![0] bcast_S4_S4x1_0
        (select (cmpi .slt (fun i => lit0 (S4.rowMajor i)) (broadcastInDim S4 ![] bcast_S_S4 (constantI S_ 32 0#32)))
          (addi (fun i => lit0 (S4.rowMajor i)) (broadcastInDim S4 ![] bcast_S_S4 (constantI S_ 32 128#32)))
          (fun i => lit0 (S4.rowMajor i))))
      (broadcastInDim S4 ![] bcast_S_S4 (constant S_ .f32 0x3F800000#32)))

/-- The bias as a row. -/
def biasRow (a5 : (⟨S128, .f32⟩ : BufTy).Contents (Elt F)) : (⟨S1x128, .f32⟩ : BufTy).Contents (Elt F) :=
  broadcastInDim S1x128 ![1] bcast_S128_S1x128_1 a5

end Cert.ReferenceIdeal.HostPrefix

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«139332_j79955111182918_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.RefValue.lean ====
/-
  The reference's result is the layer's output of the host-prefix arrays.

  After its host prefix the reference forms `agg − diag · (x · mask)` with the diagonal column and the mask row spread over
  the `50000 × 128` array, multiplies by the weights (the host's product: a plain sum over the 128 contracted features at
  the extended reals), adds the spread bias row, takes the maximum with a spread zero and adds the leading unit axis.
  Entry by entry the dense part is `GraphLayer.entry`; the prefix arrays are the kernel program's, written over the
  other program's names for the same shapes and dimension records.
-/
import proofs.«139332_j79955111182918_1_alg».proof.Proof.RefRun
import proofs.«139332_j79955111182918_1_alg».proof.Proof.RefPrefix
import proofs.«139332_j79955111182918_1_alg».proof.Proof.HostPrefix
import proofs.«139332_j79955111182918_1_alg».proof.Proof.LayerSpec
import proofs.«139332_j79955111182918_1_alg».proof.Proof.LibDotGeneralNN
import proofs.«139332_j79955111182918_1_alg».proof.Proof.LibBroadcastInDimPair
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Run Idealize.ShloMosaic Idealize.ShloMosaic.TcCoe
open Idealize.ShloMosaic.ValueIdx Idealize.ShloMosaic.StableHlo Idealize.SL.Sem

/-- The dense part of the layer as the reference computes it from six arrays: the corrected features times the weights
    by the host's product, plus the spread bias row, and the maximum with a spread zero. -/
def denseTerm (AGG X0 : FVec Ideal S50000x128 .f32) (DCOL : FVec Ideal S50000x1 .f32) (MROW BROW : FVec Ideal S1x128 .f32)
    (W : FVec Ideal S128x128 .f32) : FVec Ideal S50000x128 .f32 :=
    maximumf
      (addf (Host.dotGeneral (F := Ideal) dot_S50000x128_S128x128_S50000x128_1_0_0_1_n_n none
          (subf AGG (mulf (broadcastInDim S50000x128 ![0, 1] bcast_S50000x1_S50000x128_0_1 DCOL)
            (mulf X0 (broadcastInDim S50000x128 ![0, 1] bcast_S1x128_S50000x128_0_1 MROW)))) W)
        (broadcastInDim S50000x128 ![0, 1] bcast_S1x128_S50000x128_0_1 BROW))
      (broadcastInDim S50000x128 ![] bcast_S_S50000x128 (constant (F := Ideal) S_ .f32 0x00000000#32))

/-- Entry by entry the dense part is the layer's entry. -/
theorem dense_eq (AGG X0 : FVec Ideal S50000x128 .f32) (DCOL : FVec Ideal S50000x1 .f32) (MROW BROW : FVec Ideal S1x128 .f32)
    (W : FVec Ideal S128x128 .f32) :
    denseTerm AGG X0 DCOL MROW BROW W = GraphLayer.out 50000 AGG DCOL X0 MROW W BROW := by
  unfold denseTerm
  funext i
  obtain ⟨p, q, rfl⟩ : ∃ (p : Fin 50000) (q : Fin 128), i = ix2 p q := ⟨i 0, i 1, eq_ix2 i⟩
  rw [GraphLayer.out_ix2]
  unfold GraphLayer.entry
  rw [maximumf_apply, addf_apply]
  refine congrArg₂ max (congrArg₂ (· + ·) ?_ (broadcastInDim_row_apply BROW _ p q)) ?_
  · refine (LibDotGeneralNN.dotGeneral_apply 50000 128 128 none .single _ W p q).trans ?_
    refine Finset.sum_congr rfl fun k _ => ?_
    refine congrArg₂ (· * ·) ?_ rfl
    rw [subf_apply, mulf_apply, mulf_apply, broadcastInDim_col_apply, broadcastInDim_row_apply]
  · exact broadcastInDim_apply _ _ _ _ ix0 (fun a => a.elim0)

/-! ## The two programs' names for one array -/

section SameArrays
variable {F : FTy → Type} [FloatOps F]

theorem nodeFeatures_same (a0 : (⟨S1x50000x128, .f32⟩ : BufTy).Contents (Elt F)) :
    Cert.ReferenceIdeal.HostPrefix.nodeFeatures a0 = Cert.KernelIdeal.HostPrefix.nodeFeatures a0 := rfl
theorem aggregated_same (a0 : (⟨S1x50000x128, .f32⟩ : BufTy).Contents (Elt F)) (a1 a2 : (⟨S1650000, .i32⟩ : BufTy).Contents (Elt F))
    (a3 : (⟨S1650000, .f32⟩ : BufTy).Contents (Elt F)) :
    Cert.ReferenceIdeal.HostPrefix.aggregated a0 a1 a2 a3 = Cert.KernelIdeal.HostPrefix.aggregated a0 a1 a2 a3 := rfl
theorem diagColumn_same (a1 a2 : (⟨S1650000, .i32⟩ : BufTy).Contents (Elt F)) (a3 : (⟨S1650000, .f32⟩ : BufTy).Contents (Elt F)) :
    Cert.ReferenceIdeal.HostPrefix.diagColumn a1 a2 a3 = Cert.KernelIdeal.HostPrefix.diagColumn a1 a2 a3 := rfl
theorem maskRow_same : (Cert.ReferenceIdeal.HostPrefix.maskRow : (⟨S1x128, .f32⟩ : BufTy).Contents (Elt F)) = Cert.KernelIdeal.HostPrefix.maskRow := rfl
theorem biasRow_same (a5 : (⟨S128, .f32⟩ : BufTy).Contents (Elt F)) : Cert.ReferenceIdeal.HostPrefix.biasRow a5 = Cert.KernelIdeal.HostPrefix.biasRow a5 := rfl

end SameArrays

/-! ## The run's result -/

variable (m : (ℓ : Loc nD τ sig) → Buf (Elt Ideal) ℓ)

set_option maxHeartbeats 1000000 in
/-- What the result buffer holds after the operations: each line's result read at its own buffer. -/
theorem result_raw (c : Dev nD) :
    after ops (launchContents m c) (Proc.devRef .tc main_v40)
      = broadcastInDim S1x50000x128 ![1, 2] bcast_S50000x128_S1x50000x128_1_2
          (denseTerm (Cert.ReferenceIdeal.HostPrefix.aggregated (m ((c.tc : Thread nD τ).loc main_arg0)) (m ((c.tc : Thread nD τ).loc main_arg1)) (m ((c.tc : Thread nD τ).loc main_arg2)) (m ((c.tc : Thread nD τ).loc main_arg3))) (Cert.ReferenceIdeal.HostPrefix.nodeFeatures (m ((c.tc : Thread nD τ).loc main_arg0)))
            (Cert.ReferenceIdeal.HostPrefix.diagColumn (m ((c.tc : Thread nD τ).loc main_arg1)) (m ((c.tc : Thread nD τ).loc main_arg2)) (m ((c.tc : Thread nD τ).loc main_arg3))) (Cert.ReferenceIdeal.HostPrefix.maskRow (F := Ideal)) (Cert.ReferenceIdeal.HostPrefix.biasRow (m ((c.tc : Thread nD τ).loc main_arg5))) (m ((c.tc : Thread nD τ).loc main_arg4))) := by
  after_results_simp
  unfold denseTerm Cert.ReferenceIdeal.HostPrefix.aggregated Cert.ReferenceIdeal.HostPrefix.diagColumn Cert.ReferenceIdeal.HostPrefix.nodeFeatures Cert.ReferenceIdeal.HostPrefix.gatherIndex
    Cert.ReferenceIdeal.HostPrefix.maskRow Cert.ReferenceIdeal.HostPrefix.biasRow
  rfl

/-- The result over the reference's own names. -/
theorem result_ref (c : Dev nD) :
    after ops (launchContents m c) (Proc.devRef .tc main_v40)
      = broadcastInDim S1x50000x128 ![1, 2] bcast_S50000x128_S1x50000x128_1_2
          (GraphLayer.out 50000 (Cert.ReferenceIdeal.HostPrefix.aggregated (m ((c.tc : Thread nD τ).loc main_arg0)) (m ((c.tc : Thread nD τ).loc main_arg1)) (m ((c.tc : Thread nD τ).loc main_arg2)) (m ((c.tc : Thread nD τ).loc main_arg3)))
            (Cert.ReferenceIdeal.HostPrefix.diagColumn (m ((c.tc : Thread nD τ).loc main_arg1)) (m ((c.tc : Thread nD τ).loc main_arg2)) (m ((c.tc : Thread nD τ).loc main_arg3))) (Cert.ReferenceIdeal.HostPrefix.nodeFeatures (m ((c.tc : Thread nD τ).loc main_arg0)))
            (Cert.ReferenceIdeal.HostPrefix.maskRow (F := Ideal)) (m ((c.tc : Thread nD τ).loc main_arg4)) (Cert.ReferenceIdeal.HostPrefix.biasRow (m ((c.tc : Thread nD τ).loc main_arg5)))) := by
  rw [result_raw, dense_eq]

/-- The same over the kernel program's names, which is how the kernel's run states its result. -/
theorem result_eq (c : Dev nD) :
    after ops (launchContents m c) (Proc.devRef .tc main_v40)
      = broadcastInDim Cert.KernelIdeal.S1x50000x128 ![1, 2] Cert.KernelIdeal.Gen.bcast_S50000x128_S1x50000x128_1_2
          (GraphLayer.out 50000 (Cert.KernelIdeal.HostPrefix.aggregated (m ((c.tc : Thread nD τ).loc main_arg0)) (m ((c.tc : Thread nD τ).loc main_arg1)) (m ((c.tc : Thread nD τ).loc main_arg2)) (m ((c.tc : Thread nD τ).loc main_arg3)))
            (Cert.KernelIdeal.HostPrefix.diagColumn (m ((c.tc : Thread nD τ).loc main_arg1)) (m ((c.tc : Thread nD τ).loc main_arg2)) (m ((c.tc : Thread nD τ).loc main_arg3))) (Cert.KernelIdeal.HostPrefix.nodeFeatures (m ((c.tc : Thread nD τ).loc main_arg0)))
            (Cert.KernelIdeal.HostPrefix.maskRow (F := Ideal)) (m ((c.tc : Thread nD τ).loc main_arg4)) (Cert.KernelIdeal.HostPrefix.biasRow (m ((c.tc : Thread nD τ).loc main_arg5)))) := by
  rw [result_ref, aggregated_same, diagColumn_same, nodeFeatures_same, maskRow_same, biasRow_same]

set_option maxHeartbeats 1000000 in
/-- No operation writes input 0. -/
theorem kept_arg0 (c : Dev nD) : after ops (launchContents m c) (Proc.devRef .tc main_arg0) = (m ((c.tc : Thread nD τ).loc main_arg0)) := by
  after_results_simp

set_option maxHeartbeats 1000000 in
/-- No operation writes input 1. -/
theorem kept_arg1 (c : Dev nD) : after ops (launchContents m c) (Proc.devRef .tc main_arg1) = (m ((c.tc : Thread nD τ).loc main_arg1)) := by
  after_results_simp

set_option maxHeartbeats 1000000 in
/-- No operation writes input 2. -/
theorem kept_arg2 (c : Dev nD) : after ops (launchContents m c) (Proc.devRef .tc main_arg2) = (m ((c.tc : Thread nD τ).loc main_arg2)) := by
  after_results_simp

set_option maxHeartbeats 1000000 in
/-- No operation writes input 3. -/
theorem kept_arg3 (c : Dev nD) : after ops (launchContents m c) (Proc.devRef .tc main_arg3) = (m ((c.tc : Thread nD τ).loc main_arg3)) := by
  after_results_simp

set_option maxHeartbeats 1000000 in
/-- No operation writes input 4. -/
theorem kept_arg4 (c : Dev nD) : after ops (launchContents m c) (Proc.devRef .tc main_arg4) = (m ((c.tc : Thread nD τ).loc main_arg4)) := by
  after_results_simp

set_option maxHeartbeats 1000000 in
/-- No operation writes input 5. -/
theorem kept_arg5 (c : Dev nD) : after ops (launchContents m c) (Proc.devRef .tc main_arg5) = (m ((c.tc : Thread nD τ).loc main_arg5)) := by
  after_results_simp

end Cert.ReferenceIdeal.RefValue

end
-- ==== Proof.lean ====
/-
  A graph-convolution layer against its jnp reference, at the extended reals.

  Both programs first compute, on the host and with the same operations, the aggregated features
  `agg = segment_sum(w_e · x[dst_e] at src_e)`, the adjacency's diagonal `diag = segment_sum(w_e where src_e = dst_e)`
  and a 0/1 mask of four features. The layer's output is then, entry by entry,

      max ( (∑ k, (agg[p,k] − diag[p] · (x[p,k] · mask[k])) · W[k,q]) + bias[q] , 0 ).

  The kernel computes it 2000 rows at a time on the matrix unit (into a zero accumulator, its operands narrowed to bf16,
  which changes nothing at the extended reals); the reference computes it with one host product. Row `p` of the output
  depends only on row `p` of `agg`, `diag` and `x`, so the kernel's 25 row blocks are the blocks of the one whole-array
  function, and they cover the array. No algebraic law beyond this identity of the two arrangements is used, so the
  inputs' finiteness is never opened.

  The frames are the generated ones (the reference's from its run as one straight line of host operations); the ideal
  pass rewrote nothing, so `preserves` is trivial.
-/
import proofs.«139332_j79955111182918_1_alg».proof.Defs
import proofs.«139332_j79955111182918_1_alg».proof.Proof.Gen.Kernel
import proofs.«139332_j79955111182918_1_alg».proof.Proof.Gen.Kernel.Frame
import proofs.«139332_j79955111182918_1_alg».proof.Proof.Gen.KernelIdeal
import proofs.«139332_j79955111182918_1_alg».proof.Proof.Gen.KernelIdeal.Frame
import proofs.«139332_j79955111182918_1_alg».proof.Proof.Gen.ReferenceIdeal
import proofs.«139332_j79955111182918_1_alg».proof.Proof.Gen.Pre_finite_inputs
import proofs.«139332_j79955111182918_1_alg».proof.Proof.KernelResult
import proofs.«139332_j79955111182918_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates and no operation of it writes an input. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefValue.kept_arg0 m c),
      (h c Cert.ReferenceIdeal.main_arg1).trans (Cert.ReferenceIdeal.RefValue.kept_arg1 m c),
      (h c Cert.ReferenceIdeal.main_arg2).trans (Cert.ReferenceIdeal.RefValue.kept_arg2 m c),
      (h c Cert.ReferenceIdeal.main_arg3).trans (Cert.ReferenceIdeal.RefValue.kept_arg3 m c),
      (h c Cert.ReferenceIdeal.main_arg4).trans (Cert.ReferenceIdeal.RefValue.kept_arg4 m c),
      (h c Cert.ReferenceIdeal.main_arg5).trans (Cert.ReferenceIdeal.RefValue.kept_arg5 m c)⟩)
    (Cert.ReferenceIdeal.Run.run_after (F := Ideal) m ρ)

theorem preserves : Cert.preserves_Kernel_KernelIdeal := trivial

/-- Both programs end with the layer's output of the host-prefix arrays of the same inputs, under a leading unit axis. -/
theorem algebraic : Cert.algebraic_KernelIdeal_ReferenceIdeal := by
  intro m ρ m' ρ' _ hagree
  refine ⟨fun c => broadcastInDim Cert.KernelIdeal.S1x50000x128 ![1, 2] Cert.KernelIdeal.Gen.bcast_S50000x128_S1x50000x128_1_2
    (GraphLayer.out 50000 (Cert.KernelIdeal.HostPrefix.aggregated (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.KernelIdeal.HostPrefix.diagColumn (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.KernelIdeal.HostPrefix.nodeFeatures (m ((c.tc : Thread Cert.KernelIdeal.nD Cert.KernelIdeal.τ).loc Cert.KernelIdeal.main_arg0)))
      (Cert.KernelIdeal.HostPrefix.maskRow (F := Ideal)) (m ((c.tc : Thread Cert.KernelIdeal.nD Cert.KernelIdeal.τ).loc Cert.KernelIdeal.main_arg4)) (Cert.KernelIdeal.HostPrefix.biasRow (m ((c.tc : Thread Cert.KernelIdeal.nD Cert.KernelIdeal.τ).loc Cert.KernelIdeal.main_arg5)))), ?_, ?_⟩
  · refine (θ_run Cert.KernelIdeal.defs _ _).mono (fun r h c => ⟨(h c).1.trans ?_, (h c).2⟩) (Cert.KernelIdeal.ArrayValue.run m ρ)
    rw [Cert.KernelIdeal.ArrayValue.arrayOut_eq m c]
  · refine (θ_run Cert.ReferenceIdeal.defs _ _).mono (fun r h c =>
      ⟨(h c Cert.ReferenceIdeal.main_v40).trans ?_,
        (h c Cert.ReferenceIdeal.main_arg0).trans (Cert.ReferenceIdeal.RefValue.kept_arg0 m' c),
        (h c Cert.ReferenceIdeal.main_arg1).trans (Cert.ReferenceIdeal.RefValue.kept_arg1 m' c),
        (h c Cert.ReferenceIdeal.main_arg2).trans (Cert.ReferenceIdeal.RefValue.kept_arg2 m' c),
        (h c Cert.ReferenceIdeal.main_arg3).trans (Cert.ReferenceIdeal.RefValue.kept_arg3 m' c),
        (h c Cert.ReferenceIdeal.main_arg4).trans (Cert.ReferenceIdeal.RefValue.kept_arg4 m' c),
        (h c Cert.ReferenceIdeal.main_arg5).trans (Cert.ReferenceIdeal.RefValue.kept_arg5 m' c)⟩)
      (Cert.ReferenceIdeal.Run.run_after (F := Ideal) m' ρ')
    rw [Cert.ReferenceIdeal.RefValue.result_eq m' c, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
